-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128x16 : Shape := ⟨2, ![128, 16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  main_v18

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128x16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_v13 main_v16
-- ==== Kernel.lean ====
abbrev S50000x512 : Shape := ⟨2, ![50000, 512]⟩
abbrev S800000 : Shape := ⟨1, ![800000]⟩
abbrev S512x128 : Shape := ⟨2, ![512, 128]⟩
abbrev S128x16 : Shape := ⟨2, ![128, 16]⟩
abbrev S50000x128 : Shape := ⟨2, ![50000, 128]⟩
abbrev S2000x512 : Shape := ⟨2, ![2000, 512]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S50000x16 : Shape := ⟨2, ![50000, 16]⟩
abbrev S5000x128 : Shape := ⟨2, ![5000, 128]⟩
abbrev S5000x16 : Shape := ⟨2, ![5000, 16]⟩
abbrev S800000x16 : Shape := ⟨2, ![800000, 16]⟩
abbrev S5000 : Shape := ⟨1, ![5000]⟩
abbrev S5000x1 : Shape := ⟨2, ![5000, 1]⟩

abbrev nBuf : Space → Nat
  | .hbm => 44
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128x16, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x16, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x16, .f32⟩
  | .hbm, ⟨37, _⟩ => ⟨S800000x16, .f32⟩
  | .hbm, ⟨38, _⟩ => ⟨S800000x16, .f32⟩
  | .hbm, ⟨39, _⟩ => ⟨S_, .f32⟩
  | .hbm, ⟨40, _⟩ => ⟨S50000x16, .f32⟩
  | .hbm, ⟨41, _⟩ => ⟨S800000x1, .i32⟩
  | .hbm, ⟨42, _⟩ => ⟨S50000x16, .f32⟩
  | .hbm, ⟨43, _⟩ => ⟨S50000x16, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x16_S5000x16_1_0_0_1_n_n_wf : DotDims.WF S5000x128 S128x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S50000x16.size a
  hwx1_2 : ∀ i : grid1.Coords, EltTy.bits .f32 = 32 ∨ (Rect.block (s := S50000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128x16 : Shape := ⟨2, ![128, 16]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S50000x16 : Shape := ⟨2, ![50000, 16]⟩
abbrev S800000x16 : Shape := ⟨2, ![800000, 16]⟩
abbrev S50000 : Shape := ⟨1, ![50000]⟩
abbrev S50000x1 : Shape := ⟨2, ![50000, 1]⟩

abbrev nBuf : Space → Nat
  | .hbm => 58
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128x16, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x16, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x16, .f32⟩
  | .hbm, ⟨37, _⟩ => ⟨S800000x16, .f32⟩
  | .hbm, ⟨38, _⟩ => ⟨S800000x16, .f32⟩
  | .hbm, ⟨39, _⟩ => ⟨S_, .f32⟩
  | .hbm, ⟨40, _⟩ => ⟨S50000x16, .f32⟩
  | .hbm, ⟨41, _⟩ => ⟨S800000x1, .i32⟩
  | .hbm, ⟨42, _⟩ => ⟨S50000x16, .f32⟩
  | .hbm, ⟨43, _⟩ => ⟨S_, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x16, .f32⟩
  | .hbm, ⟨50, _⟩ => ⟨S50000x16, .f32⟩
  | .hbm, ⟨51, _⟩ => ⟨S50000x16, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S50000x1, .f32⟩
  | .hbm, ⟨56, _⟩ => ⟨S50000x16, .f32⟩
  | .hbm, ⟨57, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.KernelRun.lean ====
/-
  The idealized kernel's run with its result named.
  @main is three kernel regions among two stretches of host operations. The buffer contents at each boundary are a fold
  through @main from the launch memory: a region leaves its arrays at what its write-backs leave and every other buffer
  as entered, a host stretch leaves the buffers at its operations' results. Every weakly fair execution terminates with
  the unscoped buffers at the last boundary's contents, so the result array ends at the last fold's value at its buffer,
  and the argument arrays, which nothing writes, end as launched.
-/
import proofs.«169219_j58720792870991_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v30) = W5 m ρ c (Proc.devRef .tc main_v30)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Hand

end
-- ==== Proof.MatMul.lean ====
/-
  The two matrix products of the kernel, read at an entry.
  Each product kernel rounds its two loaded blocks to bf16 (the identity on extended reals) and multiplies them into a zero
  accumulator, so entry (p, q) of what it stores is the plain sum over k of x(p, k) · w(k, q); the second kernel first
  recasts its block to the shape it already has.
-/
import proofs.«169219_j58720792870991_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The first product's dimension record. -/
abbrev D0 : DotDims S2000x512 S512x128 S2000x128 := dot_S2000x512_S512x128_S2000x128_1_0_0_1_n_n
/-- The second product's dimension record. -/
abbrev D1 : DotDims S5000x128 S128x16 S5000x16 := dot_S5000x128_S128x16_S5000x16_1_0_0_1_n_n

theorem D0_lhs0 (i : S2000x128.Idx) (q : D0.contr.Idx) : (D0.lhsIdx i q 0).val = (i 0).val := by
  unfold DotDims.lhsIdx
  rw [dif_neg (show ¬(0 : Fin S2000x512.rank) ∈ D0.lhsBatch by decide), dif_pos (show (0 : Fin S2000x512.rank) ∈ D0.lhsNonContracting by decide)]
  rfl
theorem D0_rhs1 (i : S2000x128.Idx) (q : D0.contr.Idx) : (D0.rhsIdx i q 1).val = (i 1).val := by
  unfold DotDims.rhsIdx
  rw [dif_neg (show ¬(1 : Fin S512x128.rank) ∈ D0.rhsBatch by decide), dif_pos (show (1 : Fin S512x128.rank) ∈ D0.rhsNonContracting by decide)]
  rfl
theorem D1_lhs0 (i : S5000x16.Idx) (q : D1.contr.Idx) : (D1.lhsIdx i q 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem D1_rhs1 (i : S5000x16.Idx) (q : D1.contr.Idx) : (D1.rhsIdx i q 1).val = (i 1).val := by
  unfold DotDims.rhsIdx
  rw [dif_neg (show ¬(1 : Fin S128x16.rank) ∈ D1.rhsBatch by decide), dif_pos (show (1 : Fin S128x16.rank) ∈ D1.rhsNonContracting by decide)]
  rfl

/-- Entry (p, q) of what the first product kernel stores: the sum over k of x(p, k) · w(k, q). -/
theorem pay0_apply (x : Vec Ideal S2000x512 .f32) (w : Vec Ideal S512x128 .f32) (p : Fin 2000) (q : Fin 128) :
    k0_pay1 (F := Ideal) x w (ix2 p q) = ∑ k : Fin 512, x (ix2 p k) * w (ix2 k q) := by
  unfold k0_pay1
  refine (Ideal.matmul_constant_zero_apply D0 none _ _ (ix2 p q)).trans ?_
  rw [← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact D0_lhs0 _ _
    | ⟨1, _⟩ => exact (D0.lhsIdx_val_of_single rfl _ _).trans hk)
  have er : D0.rhsIdx (ix2 p q) ((contrEquiv1 D0 512 rfl rfl).symm k) = ix2 k q := funext fun a => Fin.ext (by
    match a with
    | ⟨0, _⟩ => exact (D0.rhsIdx_val_of_single rfl _ _).trans hk
    | ⟨1, _⟩ => exact D0_rhs1 _ _)
  rw [el, er]
  rfl

/-- Entry (p, q) of what the second product kernel stores: the sum over k of x(p, k) · w(k, q). -/
theorem pay1_apply (x : Vec Ideal S5000x128 .f32) (w : Vec Ideal S128x16 .f32) (p : Fin 5000) (q : Fin 16) :
    k1_pay1 (F := Ideal) x w (ix2 p q) = ∑ k : Fin 128, x (ix2 p k) * w (ix2 k q) := by
  unfold k1_pay1
  rw [shapeCast_self]
  refine (Ideal.matmul_constant_zero_apply D1 none _ _ (ix2 p q)).trans ?_
  rw [← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact D1_lhs0 _ _
    | ⟨1, _⟩ => exact (D1.lhsIdx_val_of_single rfl _ _).trans hk)
  have er : D1.rhsIdx (ix2 p q) ((contrEquiv1 D1 128 rfl rfl).symm k) = ix2 k q := funext fun a => Fin.ext (by
    match a with
    | ⟨0, _⟩ => exact (D1.rhsIdx_val_of_single rfl _ _).trans hk
    | ⟨1, _⟩ => exact D1_rhs1 _ _)
  rw [el, er]
  rfl

end Cert.KernelIdeal.Hand

end
-- ==== Proof.LibRowMax.lean ====
/-
  The maximum of a row, read at an index, for matrices of `n` rows and `m` columns on the extended reals.
  A lane reduction by maximum along the rows of a matrix, and the host's reduce by maximum along the same axis, are both
  the fold of `max` over the row's entries, started from the accumulator's (respectively the initial) value. Since `max`
  commutes and associates the order of the fold does not matter, and both read the same finite set of entries.
  Nothing here depends on a program.
-/
import Idealize.ShloMosaic.Lib.Pipeline.Value
import Idealize.ShloMosaic.Lib.ValueIdx
import Idealize.ShloMosaic.PureOps.Ideal.Laws

noncomputable section

open scoped BigOperators

namespace Cert.LibRowMax

open Idealize.ShloMosaic Idealize.ShloMosaic.ValueIdx

/-- The index over row `r` with `k` inserted on the reduced axis is `(r, k)`. -/
theorem lift_row {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by maximum of an `n × m` matrix along its rows: at row `r` the fold of `max` over the row's entries,
    from the value the accumulator's pattern denotes. -/
theorem multiReduction_max_rows {n m : Nat} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin m)).fold max (Ideal.ofBits .f32 acc) (fun k => src (ix2 r k)) :=
  (Ideal.multiReduction_maximumf_single src acc h hφ hacc (ix1 r)).trans
    (congrArg (fun f : Fin m → EReal => (Finset.univ : Finset (Fin m)).fold max (Ideal.ofBits .f32 acc) f)
      (funext fun k => congrArg src (lift_row h r k)))

/-- The host's reduce by maximum of an `n × m` matrix along its rows: at row `r` the fold of `max` over the row's entries,
    from the initial value. -/
theorem hostReduceMax_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduce (FloatOps.maximumf (F := Ideal) (φ := .f32)) x init h' hu (ix1 r)
      = (Finset.univ : Finset (Fin m)).fold max (init ix0) (fun k => x (ix2 r k)) := by
  have e0 : Shape.Idx.first hu = ix0 := funext fun a => a.elim0
  rw [Host.reduce_eq_fold_single (FloatOps.maximumf (F := Ideal) (φ := .f32)) x init h' h hu (ix1 r), e0]
  exact congrArg (fun f : Fin m → EReal => (Finset.univ : Finset (Fin m)).fold max (init ix0) f)
    (funext fun k => congrArg x (lift_row h r k))

end Cert.LibRowMax

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibLogSoftmax.lean ====
/-
  The log-softmax of a row of `m` extended reals, and a kernel's and a host program's forms of it read at an entry.
  With t the largest entry of the row (the fold of max from -inf), entry q of the result is
  (row q − t) − log (Σ k, exp (row k − t)). The kernel computes t by a lane reduction, spreads it back over the row through
  a one-column matrix, and sums the exponentials by a second lane reduction (which adds nothing to the sum); the host
  computes t by its reduce, takes the maximum of that with -inf once more (which changes nothing: t is already at least
  -inf), and its sum starts from the constant 0. Both are general in the number of rows and of columns. Nothing here
  depends on a program.
-/
import proofs.«169219_j58720792870991_1_alg».proof.Proof.LibRowMax
import proofs.«169219_j58720792870991_1_alg».proof.Proof.LibColumns

noncomputable section

open scoped BigOperators

namespace Cert.LibLogSoftmax

open Idealize.ShloMosaic Idealize.ShloMosaic.ValueIdx

/-- The largest entry of a row, the fold started from -inf. -/
def top {m : Nat} (row : Fin m → EReal) : EReal :=
  (Finset.univ : Finset (Fin m)).fold max (Ideal.ofBits .f32 0xFF800000#32) row

/-- Entry `q` of the log-softmax of a row. -/
def lsmRow {m : Nat} (row : Fin m → EReal) (q : Fin m) : EReal :=
  row q - top row - Ideal.log (∑ k : Fin m, Ideal.exp (row k - top row))

/-- The kernel's form on a block of `n` rows: both row reductions are lane reductions, each spread back over the row
    through an `n × 1` matrix. -/
theorem lsm_lanes {n m : Nat} (x : FVec Ideal ⟨2, ![n, m]⟩ .f32)
    (h : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩) (hφ : FKind.Formats .f32)
    (hM : (0xFF800000#32 : BitVec 32) = FKind.maximumf.neutral .f32 hφ)
    (hS : (0x00000000#32 : BitVec 32) = FKind.add.neutral .f32 hφ) (r : Fin n) (q : Fin m) :
    subf (subf x (broadcastTo ⟨2, ![n, m]⟩ (shapeCast ⟨2, ![n, 1]⟩ (multiReduction .maximumf [1] ⟨1, ![n]⟩ x 0xFF800000#32 h hφ hM) hc) hb))
      (broadcastTo ⟨2, ![n, m]⟩ (log (shapeCast ⟨2, ![n, 1]⟩ (multiReduction .add [1] ⟨1, ![n]⟩
        (exp (subf x (broadcastTo ⟨2, ![n, m]⟩ (shapeCast ⟨2, ![n, 1]⟩ (multiReduction .maximumf [1] ⟨1, ![n]⟩ x 0xFF800000#32 h hφ hM) hc) hb)))
        0x00000000#32 h hφ hS) hc)) hb) (ix2 r q)
      = lsmRow (fun k => x (ix2 r k)) q := by
  have e4 : ∀ q' : Fin m, (broadcastTo ⟨2, ![n, m]⟩ (shapeCast ⟨2, ![n, 1]⟩ (multiReduction .maximumf [1] ⟨1, ![n]⟩ x 0xFF800000#32 h hφ hM) hc) hb) (ix2 r q')
      = top (fun k => x (ix2 r k)) := fun q' =>
    (Cert.LibColumns.broadcastTo_col _ hb r q').trans
      ((Cert.LibColumns.shapeCast_vec_col _ hc r).trans (Cert.LibRowMax.multiReduction_max_rows x _ h hφ hM r))
  unfold lsmRow
  refine congrArg₂ (fun a b : EReal => a - b) (congrArg (fun a : EReal => x (ix2 r q) - a) (e4 q)) ?_
  refine (Cert.LibColumns.broadcastTo_col _ hb r q).trans ?_
  refine congrArg Ideal.log ?_
  refine (Cert.LibColumns.shapeCast_vec_col _ hc r).trans ?_
  refine (Cert.LibColumns.multiReduction_rows _ h hφ hS r).trans ?_
  exact Finset.sum_congr rfl fun k _ => congrArg Ideal.exp (congrArg (fun a : EReal => x (ix2 r k) - a) (e4 k))

/-- The maximum of the fold's start with the fold is the fold. -/
theorem max_start_fold {m : Nat} (a : EReal) (f : Fin m → EReal) :
    max a ((Finset.univ : Finset (Fin m)).fold max a f) = (Finset.univ : Finset (Fin m)).fold max a f :=
  max_eq_right ((Finset.le_fold_max a).mpr (Or.inl le_rfl))

/-- The host's form on a matrix of `n` rows: its reduce by maximum from -inf, once more the maximum with -inf, and its sum
    of the exponentials from the constant 0, each spread back over the row by two broadcasts. -/
theorem lsm_host {n m : Nat} (y : FVec Ideal ⟨2, ![n, m]⟩ .f32)
    (hr : (⟨2, ![n, m]⟩ : Shape).ReducesTo [1] ⟨1, ![n]⟩) (hu : 0 < (⟨0, ![]⟩ : Shape).numel)
    (h : (⟨2, ![n, m]⟩ : Shape).Reduces [1] ⟨1, ![n]⟩)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, m]⟩ ![0, 1]) (r : Fin n) (q : Fin m) :
    subf (subf y (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))))
      (broadcastInDim ⟨2, ![n, m]⟩ ![0, 1] hb2 (Host.log (broadcastInDim ⟨2, ![n, 1]⟩ ![0] hb1 (Host.reduceAdd (F := Ideal) (Host.exp (subf y (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))))) (constant (F := Ideal) ⟨0, ![]⟩ .f32 0x00000000#32) hr hu)))) (ix2 r q)
      = lsmRow (fun k => y (ix2 r k)) q := by
  have e4 : ∀ q' : Fin m, (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))) (ix2 r q')
      = top (fun k => y (ix2 r k)) := fun q' =>
    (Cert.LibColumns.broadcastInDim_col_mat ![0, 1] rfl rfl hb2 _ r q').trans
      ((Cert.LibColumns.broadcastInDim_vec_col ![0] rfl hb1 _ r).trans
        ((congrArg₂ max (Cert.LibColumns.broadcastInDim_scalar ![] hb0 _ (ix1 r))
            (Cert.LibRowMax.hostReduceMax_rows y _ hr hu h r)).trans (max_start_fold _ _)))
  unfold lsmRow
  refine congrArg₂ (fun a b : EReal => a - b) (congrArg (fun a : EReal => y (ix2 r q) - a) (e4 q)) ?_
  refine (Cert.LibColumns.broadcastInDim_col_mat ![0, 1] rfl rfl hb2 _ r q).trans ?_
  refine congrArg Ideal.log ?_
  refine (Cert.LibColumns.broadcastInDim_vec_col ![0] rfl hb1 _ r).trans ?_
  refine (Cert.LibColumns.hostReduceAdd_rows _ _ hr hu h r).trans ?_
  refine (congrArg (· + _) Ideal.ofBits_zero_f32).trans ((zero_add _).trans ?_)
  exact Finset.sum_congr rfl fun k _ => congrArg Ideal.exp (congrArg (fun a : EReal => y (ix2 r k) - a) (e4 k))

end Cert.LibLogSoftmax

end
-- ==== Proof.Spec.lean ====
/-
  The two whole-array functions the certificate is stated over, index by index on the extended reals: the product of two
  matrices, and the log-softmax of every row of a matrix.
-/
import proofs.«169219_j58720792870991_1_alg».proof.Proof.LibLogSoftmax

noncomputable section

open scoped BigOperators

namespace Cert.Spec

open Idealize.ShloMosaic Idealize.ShloMosaic.ValueIdx

/-- Entry (r, c) of the product of an `A × K` and a `K × B` matrix: the sum over k of x(r, k) · w(k, c). -/
def matProd {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, (i 0).isLt⟩ : Fin A) k) * w (ix2 k (⟨(i 1).val, (i 1).isLt⟩ : Fin B))

/-- Entry (r, c) of the row-wise log-softmax of a matrix. -/
def logSoftmax {n m : Nat} (y : (⟨2, ![n, m]⟩ : Shape).Idx → EReal) : (⟨2, ![n, m]⟩ : Shape).Idx → EReal :=
  fun i => Cert.LibLogSoftmax.lsmRow (fun k => y (ix2 (⟨(i 0).val, (i 0).isLt⟩ : Fin n) k)) (⟨(i 1).val, (i 1).isLt⟩ : Fin m)

end Cert.Spec

end
-- ==== Proof.Blocks0.lean ====
/-
  Region 0: the array the product kernel leaves is the product of its two operand arrays.
  The grid has 25 points; point t works on rows 2000·t … 2000·t + 1999. Its left block is those rows of the left array, its
  right block the whole right array, and what it writes back is those rows of the result: entry (p, q) of the block is the
  sum over k of left(2000·t + p, k) · right(k, q), which is entry (2000·t + p, q) of the product. The 25 row blocks cover the
  result array (row r lies in block r / 2000), so the array after the region is the product.
-/
import proofs.«169219_j58720792870991_1_alg».proof.Proof.Gen.KernelIdeal.Frame
import proofs.«169219_j58720792870991_1_alg».proof.Proof.MatMul
import proofs.«169219_j58720792870991_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- An entry of the stored block from the rows of the arrays the loaded blocks are read from. -/
theorem pay0_rows (xb : Vec Ideal S2000x512 .f32) (wb : Vec Ideal S512x128 .f32) (X : S50000x512.Idx → EReal) (W : S512x128.Idx → EReal)
    (y : S2000x128.Idx) (i : S50000x128.Idx)
    (hx : ∀ k : Fin 512, xb (ix2 (⟨(y 0).val, (y 0).isLt⟩ : Fin 2000) k) = X (ix2 (⟨(i 0).val, (i 0).isLt⟩ : Fin 50000) k))
    (hw : ∀ k : Fin 512, wb (ix2 k (⟨(y 1).val, (y 1).isLt⟩ : Fin 128)) = W (ix2 k (⟨(i 1).val, (i 1).isLt⟩ : Fin 128))) :
    k0_pay1 (F := Ideal) xb wb y = Cert.Spec.matProd X W i := by
  obtain ⟨p, q, rfl⟩ : ∃ (p : Fin 2000) (q : Fin 128), y = ix2 p q := ⟨y 0, y 1, eq_ix2 y⟩
  rw [pay0_apply xb wb p q]
  exact Finset.sum_congr rfl fun k _ => congrArg₂ (fun a b : EReal => a * b) (hx k) (hw k)

/-- The printed index maps, decided over the grid: the left and the result window move together along the rows, the right
    window stays, and the result's row-block index is the point's number. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the product of the arrays as the region finds them. -/
theorem flushed0_eq (c : Dev nD) (t : Fin cfg0.N) :
    (dat0 V c).flushed 2 t = ((cfg0.win 2).blk t).view.read (Elt Ideal) (Cert.Spec.matProd (V c main_arg0) (V c main_arg4)) := by
  show (cfg0.win 2).cut (grid0.coords t) ((dat0 V c).after 2 t) = _
  rw [after0_2]
  unfold out0_2
  rw [View.canon_unit_zero hz0]
  simp only [View.ld_unit_zero (S := S2000x512) hz0, View.ld_unit_zero (S := S512x128) hz0]
  obtain ⟨e0, e1, e2, e3, e4, -⟩ := idx_facts0 t
  funext j
  refine pay0_rows (iblk0 V c 0 t) (iblk0 V c 1 t) (V c main_arg0) (V c main_arg4) j (((cfg0.win 2).blk t).view.emb j) (fun k => ?_) (fun k => ?_)
  · show V c main_arg0 (((cfg0.win 0).blk t).view.emb (ix2 (⟨(j 0).val, (j 0).isLt⟩ : Fin 2000) k)) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg4 (((cfg0.win 1).blk t).view.emb (ix2 k (⟨(j 1).val, (j 1).isLt⟩ : Fin 128))) = V c main_arg4 _
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the result array lies in some point's block: row r in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e4, e5⟩ := idx_facts0 ⟨(i 0).val / 2000, ht⟩
  have e5' : win0_2.index ⟨(i 0).val / 2000, ht⟩ (0 : Fin 2) = (i 0).val / 2000 := e5
  refine ⟨⟨(i 0).val / 2000, ht⟩, flush0_2 _, ?_⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e5']; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; rw [e4]; omega

/-- The result array after the region is the product of the two operand arrays as the region finds them. -/
theorem final0 (c : Dev nD) : (dat0 V c).arrAt 2 cfg0.N = Cert.Spec.matProd (V c main_arg0) (V c main_arg4) :=
  (dat0 V c).arrAt_eq_of_cover 2 (Cert.Spec.matProd (V c main_arg0) (V c main_arg4)) (fun t _ => flushed0_eq V c t) (fun i => cover0 i)

end Cert.KernelIdeal.Hand

end
-- ==== Proof.Blocks1.lean ====
/-
  Region 1: the array the product kernel leaves is the product of its two operand arrays.
  The grid has 10 points; point t works on rows 5000·t … 5000·t + 4999. Its left block is those rows of the left array, its
  right block the whole right array, and what it writes back is those rows of the result: entry (p, q) of the block is the
  sum over k of left(5000·t + p, k) · right(k, q), which is entry (5000·t + p, q) of the product. The 10 row blocks cover the
  result array (row r lies in block r / 5000), so the array after the region is the product.
-/
import proofs.«169219_j58720792870991_1_alg».proof.Proof.Gen.KernelIdeal.Frame
import proofs.«169219_j58720792870991_1_alg».proof.Proof.MatMul
import proofs.«169219_j58720792870991_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- An entry of the stored block from the rows of the arrays the loaded blocks are read from. -/
theorem pay1_rows (xb : Vec Ideal S5000x128 .f32) (wb : Vec Ideal S128x16 .f32) (X : S50000x128.Idx → EReal) (W : S128x16.Idx → EReal)
    (y : S5000x16.Idx) (i : S50000x16.Idx)
    (hx : ∀ k : Fin 128, xb (ix2 (⟨(y 0).val, (y 0).isLt⟩ : Fin 5000) k) = X (ix2 (⟨(i 0).val, (i 0).isLt⟩ : Fin 50000) k))
    (hw : ∀ k : Fin 128, wb (ix2 k (⟨(y 1).val, (y 1).isLt⟩ : Fin 16)) = W (ix2 k (⟨(i 1).val, (i 1).isLt⟩ : Fin 16))) :
    k1_pay1 (F := Ideal) xb wb y = Cert.Spec.matProd X W i := by
  obtain ⟨p, q, rfl⟩ : ∃ (p : Fin 5000) (q : Fin 16), y = ix2 p q := ⟨y 0, y 1, eq_ix2 y⟩
  rw [pay1_apply xb wb p q]
  exact Finset.sum_congr rfl fun k _ => congrArg₂ (fun a b : EReal => a * b) (hx k) (hw k)

/-- The printed index maps, decided over the grid: the left and the result window move together along the rows, the right
    window stays, and the result's row-block index is the point's number. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point `t` writes back is block `t` of the product of the arrays as the region finds them. -/
theorem flushed1_eq (c : Dev nD) (t : Fin cfg1.N) :
    (dat1 V c).flushed 2 t = ((cfg1.win 2).blk t).view.read (Elt Ideal) (Cert.Spec.matProd (V c main_v15) (V c main_arg5)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x16) hz1]
  obtain ⟨e0, e1, e2, e3, e4, -⟩ := idx_facts1 t
  funext j
  refine pay1_rows (iblk1 V c 0 t) (iblk1 V c 1 t) (V c main_v15) (V c main_arg5) j (((cfg1.win 2).blk t).view.emb j) (fun k => ?_) (fun k => ?_)
  · show V c main_v15 (((cfg1.win 0).blk t).view.emb (ix2 (⟨(j 0).val, (j 0).isLt⟩ : Fin 5000) k)) = V c main_v15 _
    refine congrArg (V c main_v15) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg5 (((cfg1.win 1).blk t).view.emb (ix2 k (⟨(j 1).val, (j 1).isLt⟩ : Fin 16))) = V c main_arg5 _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 16 + 1 * (j 1).val = win1_2.index t (1 : Fin 2) * 16 + 1 * (j 1).val; omega

/-- An index of the result array is in point `t`'s block iff each coordinate is in the block's range on its axis. -/
theorem mem_blk1 (t : Fin cfg1.N) (i : S50000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v16).slice (win1_2.rect t)).set ↔ _
  rw [View.set_slice_whole, Rect.mem_set_unit]
  exact Iff.rfl

/-- Every index of the result array lies in some point's block: row r in block r / 5000. -/
theorem cover1 (i : S50000x16.Idx) : ∃ t : Fin cfg1.N, (cfg1.win 2).flush t = true ∧ i ∈ ((cfg1.win 2).blk t).view.set := by
  have hi0 : (i 0).val < 50000 := (i 0).isLt
  have hi1 : (i 1).val < 16 := (i 1).isLt
  have hN : cfg1.N = 10 := N_1
  have ht : (i 0).val / 5000 < cfg1.N := by rw [hN]; omega
  obtain ⟨-, -, -, -, e4, e5⟩ := idx_facts1 ⟨(i 0).val / 5000, ht⟩
  have e5' : win1_2.index ⟨(i 0).val / 5000, ht⟩ (0 : Fin 2) = (i 0).val / 5000 := e5
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; rw [e5']; omega
  | ⟨1, _⟩ => show win1_2.index ⟨(i 0).val / 5000, ht⟩ (1 : Fin 2) * 16 ≤ (i 1).val ∧ (i 1).val < win1_2.index ⟨(i 0).val / 5000, ht⟩ (1 : Fin 2) * 16 + 16; rw [e4]; omega

/-- The result array after the region is the product of the two operand arrays as the region finds them. -/
theorem final1 (c : Dev nD) : (dat1 V c).arrAt 2 cfg1.N = Cert.Spec.matProd (V c main_v15) (V c main_arg5) :=
  (dat1 V c).arrAt_eq_of_cover 2 (Cert.Spec.matProd (V c main_v15) (V c main_arg5)) (fun t _ => flushed1_eq V c t) (fun i => cover1 i)

end Cert.KernelIdeal.Hand

end
-- ==== Proof.Blocks2.lean ====
/-
  Region 2: the array the log-softmax kernel leaves is the row-wise log-softmax of its operand array.
  The grid has 10 points; point t works on rows 5000·t … 5000·t + 4999. Its loaded block is those rows of the operand, and
  a row's log-softmax depends on that row alone, so entry (p, q) of what the point writes back is entry (5000·t + p, q) of
  the log-softmax of the whole array. The 10 row blocks cover the result array (row r lies in block r / 5000).
-/
import proofs.«169219_j58720792870991_1_alg».proof.Proof.Gen.KernelIdeal.Frame
import proofs.«169219_j58720792870991_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (p, q) of what the log-softmax kernel stores is the log-softmax of row p of its loaded block. -/
theorem pay2_apply (x : Vec Ideal S5000x16 .f32) (p : Fin 5000) (q : Fin 16) :
    k2_pay1 (F := Ideal) x (ix2 p q) = Cert.LibLogSoftmax.lsmRow (fun k => x (ix2 p k)) q := by
  unfold k2_pay1
  simp only [shapeCast_self]
  exact Cert.LibLogSoftmax.lsm_lanes (n := 5000) (m := 16) x _ _ _ _ _ _ p q

/-- An entry of the stored block from the row of the array the loaded block is read from. -/
theorem pay2_rows (xb : Vec Ideal S5000x16 .f32) (Y : S50000x16.Idx → EReal) (y : S5000x16.Idx) (i : S50000x16.Idx)
    (hx : ∀ k : Fin 16, xb (ix2 (⟨(y 0).val, (y 0).isLt⟩ : Fin 5000) k) = Y (ix2 (⟨(i 0).val, (i 0).isLt⟩ : Fin 50000) k))
    (h1 : (y 1).val = (i 1).val) :
    k2_pay1 (F := Ideal) xb y = Cert.Spec.logSoftmax Y i := by
  obtain ⟨p, q, rfl⟩ : ∃ (p : Fin 5000) (q : Fin 16), y = ix2 p q := ⟨y 0, y 1, eq_ix2 y⟩
  rw [pay2_apply xb p q]
  unfold Cert.Spec.logSoftmax
  have eq : (⟨(i 1).val, (i 1).isLt⟩ : Fin 16) = q := Fin.ext h1.symm
  rw [eq]
  exact congrArg (fun row : Fin 16 → EReal => Cert.LibLogSoftmax.lsmRow row q) (funext fun k => hx k)

/-- The printed index maps, decided over the grid: the operand and the result window move together along the rows, and the
    result's row-block index is the point's number. -/
theorem idx_facts2 : ∀ t : Fin cfg2.N, win2_0.index t (0 : Fin 2) = win2_1.index t (0 : Fin 2)
    ∧ win2_0.index t (1 : Fin 2) = 0 ∧ win2_1.index t (1 : Fin 2) = 0 ∧ win2_1.index t (0 : Fin 2) = t.val :=
  (by decide +kernel : ∀ t : Fin grid2.N, _)

/-- What point `t` writes back is block `t` of the log-softmax of the array as the region finds it. -/
theorem flushed2_eq (c : Dev nD) (t : Fin cfg2.N) :
    (dat2 V c).flushed 1 t = ((cfg2.win 1).blk t).view.read (Elt Ideal) (Cert.Spec.logSoftmax (V c main_v29)) := by
  show (cfg2.win 1).cut (grid2.coords t) ((dat2 V c).after 1 t) = _
  rw [after2_1]
  unfold out2_1
  rw [View.canon_unit_zero hz2]
  simp only [View.ld_unit_zero (S := S5000x16) hz2]
  obtain ⟨e0, e1, e2, -⟩ := idx_facts2 t
  funext j
  refine pay2_rows (iblk2 V c 0 t) (V c main_v29) j (((cfg2.win 1).blk t).view.emb j) (fun k => ?_) ?_
  · show V c main_v29 (((cfg2.win 0).blk t).view.emb (ix2 (⟨(j 0).val, (j 0).isLt⟩ : Fin 5000) k)) = V c main_v29 _
    refine congrArg (V c main_v29) (funext fun a => Fin.ext ?_)
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 16 + 1 * k.val = k.val; omega
  · show (j 1).val = win2_1.index t (1 : Fin 2) * 16 + 1 * (j 1).val
    omega

/-- An index of the result array is in point `t`'s block iff each coordinate is in the block's range on its axis. -/
theorem mem_blk2 (t : Fin cfg2.N) (i : S50000x16.Idx) :
    i ∈ ((cfg2.win 1).blk t).view.set ↔ ∀ a : Fin 2, win2_1.index t a * S5000x16.size a ≤ (i a).val ∧ (i a).val < win2_1.index t a * S5000x16.size a + S5000x16.size a := by
  show i ∈ ((View.whole main_v30).slice (win2_1.rect t)).set ↔ _
  rw [View.set_slice_whole, Rect.mem_set_unit]
  exact Iff.rfl

/-- Every index of the result array lies in some point's block: row r in block r / 5000. -/
theorem cover2 (i : S50000x16.Idx) : ∃ t : Fin cfg2.N, (cfg2.win 1).flush t = true ∧ i ∈ ((cfg2.win 1).blk t).view.set := by
  have hi0 : (i 0).val < 50000 := (i 0).isLt
  have hi1 : (i 1).val < 16 := (i 1).isLt
  have hN : cfg2.N = 10 := N_2
  have ht : (i 0).val / 5000 < cfg2.N := by rw [hN]; omega
  obtain ⟨-, -, e2, e3⟩ := idx_facts2 ⟨(i 0).val / 5000, ht⟩
  have e3' : win2_1.index ⟨(i 0).val / 5000, ht⟩ (0 : Fin 2) = (i 0).val / 5000 := e3
  refine ⟨⟨(i 0).val / 5000, ht⟩, flush2_1 _, ?_⟩
  rw [mem_blk2]
  intro a
  match a with
  | ⟨0, _⟩ => show win2_1.index ⟨(i 0).val / 5000, ht⟩ (0 : Fin 2) * 5000 ≤ (i 0).val ∧ (i 0).val < win2_1.index ⟨(i 0).val / 5000, ht⟩ (0 : Fin 2) * 5000 + 5000; rw [e3']; omega
  | ⟨1, _⟩ => show win2_1.index ⟨(i 0).val / 5000, ht⟩ (1 : Fin 2) * 16 ≤ (i 1).val ∧ (i 1).val < win2_1.index ⟨(i 0).val / 5000, ht⟩ (1 : Fin 2) * 16 + 16; rw [e2]; omega

/-- The result array after the region is the row-wise log-softmax of the operand array as the region finds it. -/
theorem final2 (c : Dev nD) : (dat2 V c).arrAt 1 cfg2.N = Cert.Spec.logSoftmax (V c main_v29) :=
  (dat2 V c).arrAt_eq_of_cover 1 (Cert.Spec.logSoftmax (V c main_v29)) (fun t _ => flushed2_eq V c t) (fun i => cover2 i)

end Cert.KernelIdeal.Hand

end
-- ==== Proof.HostChain.lean ====
/-
  The host operations between the kernel regions, as two functions of the arrays they read.
  Between the first and the second product, and again between the second product and the log-softmax, @main gathers the
  rows of a dense matrix by each edge's source node (a negative node number counted from the end), scales every gathered
  row by the edge's value, and adds the rows into a zero matrix at each edge's destination node; after the first of these
  it takes the maximum with zero. The contents of the buffers a region is entered with are these functions of the
  contents the region before left, and the edge arrays and the weight matrices, which nothing writes, are as launched.
-/
import proofs.«169219_j58720792870991_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Rows of a 128-column matrix gathered by source node, scaled by the edge values, added at the destination nodes. -/
def spmm128 (h : (⟨S50000x128, .f32⟩ : BufTy).Contents (Elt F)) (src dst : (⟨S800000, .i32⟩ : BufTy).Contents (Elt F))
    (val : (⟨S800000, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The same for a 16-column matrix. -/
def spmm16 (h : (⟨S50000x16, .f32⟩ : BufTy).Contents (Elt F)) (src dst : (⟨S800000, .i32⟩ : BufTy).Contents (Elt F))
    (val : (⟨S800000, .f32⟩ : BufTy).Contents (Elt F)) : (⟨S50000x16, .f32⟩ : BufTy).Contents (Elt F) :=
  Host.scatterAdd scatter_S50000x16_S800000x1_S800000x16_1_0_0_1 (broadcastInDim S50000x16 ![] bcast_S_S50000x16 (constant S_ .f32 0x00000000#32)) (broadcastInDim S800000x1 ![0] bcast_S800000_S800000x1_0 dst) (mulf (broadcastInDim S800000x16 ![0, 1] bcast_S800000x1_S800000x16_0_1 (broadcastInDim S800000x1 ![0] bcast_S800000_S800000x1_0 val)) (Host.gather gather_S50000x16_S800000x1_S800000x16_1_0_n_n_0_1_116 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The maximum with zero, entry by entry. -/
def relu128 (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

variable (m : (ℓ : Loc nD τ sig) → Buf (Elt F) ℓ) (ρ : Dev nD → PrngReg)

/-- The second product's left operand, as the second region finds it: the first stretch's operations of what the first
    region left. -/
theorem entry1_left (c : Dev nD) :
    V2 m ρ c main_v15 = relu128 (spmm128 (W1 m ρ c (Proc.devRef .tc main_v0)) (W1 m ρ c (Proc.devRef .tc main_arg1))
      (W1 m ρ c (Proc.devRef .tc main_arg2)) (W1 m ρ c (Proc.devRef .tc main_arg3))) := by
  show StableHlo.after hostOps1 (W1 m ρ c) (Proc.devRef .tc main_v15) = _
  after_results
  rfl

/-- The log-softmax's operand, as the third region finds it: the second stretch's operations of what the second region left. -/
theorem entry2_operand (c : Dev nD) :
    V4 m ρ c main_v29 = spmm16 (W3 m ρ c (Proc.devRef .tc main_v16)) (W3 m ρ c (Proc.devRef .tc main_arg1))
      (W3 m ρ c (Proc.devRef .tc main_arg2)) (W3 m ρ c (Proc.devRef .tc main_arg3)) := by
  show StableHlo.after hostOps2 (W3 m ρ c) (Proc.devRef .tc main_v29) = _
  after_results
  rfl

/-- A buffer no operation of the first stretch writes is after it as before it. -/
theorem kept1 (c : Dev nD) (b : Ref sig .tc)
    (h : ∀ op ∈ (hostOps1 : List (HloOp τ sig (Elt F))), (Proc.devRef .tc b : DevRef τ sig) ∉ op.writes) :
    W2 m ρ c (Proc.devRef .tc b) = W1 m ρ c (Proc.devRef .tc b) :=
  StableHlo.after_of_forall_not_mem (b := Proc.devRef .tc b) _ _ h

/-- A buffer no operation of the second stretch writes is after it as before it. -/
theorem kept2 (c : Dev nD) (b : Ref sig .tc)
    (h : ∀ op ∈ (hostOps2 : List (HloOp τ sig (Elt F))), (Proc.devRef .tc b : DevRef τ sig) ∉ op.writes) :
    W4 m ρ c (Proc.devRef .tc b) = W3 m ρ c (Proc.devRef .tc b) :=
  StableHlo.after_of_forall_not_mem (b := Proc.devRef .tc b) _ _ h

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)

theorem W2_arg1 (c : Dev nD) : W2 m ρ c (Proc.devRef .tc main_arg1) = m ((c : Thread nD τ).loc main_arg1) :=
  (kept1 m ρ c main_arg1 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg1 m ρ c)
theorem W2_arg2 (c : Dev nD) : W2 m ρ c (Proc.devRef .tc main_arg2) = m ((c : Thread nD τ).loc main_arg2) :=
  (kept1 m ρ c main_arg2 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg2 m ρ c)
theorem W2_arg3 (c : Dev nD) : W2 m ρ c (Proc.devRef .tc main_arg3) = m ((c : Thread nD τ).loc main_arg3) :=
  (kept1 m ρ c main_arg3 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg3 m ρ c)
theorem W2_arg5 (c : Dev nD) : W2 m ρ c (Proc.devRef .tc main_arg5) = m ((c : Thread nD τ).loc main_arg5) :=
  (kept1 m ρ c main_arg5 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg5 m ρ c)

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)

end Cert.KernelIdeal.Hand

end
-- ==== Proof.KernelValue.lean ====
/-
  The idealized kernel's result as one function of its arguments.
  Reading the boundary contents back from the last one: the result array is what the log-softmax region leaves, the
  row-wise log-softmax of its operand; the operand is the second edge stage of what the second product region left, the
  product of its left operand with W2; that left operand is the maximum with zero of the first edge stage of what the first
  product region left, the product of x with W1. The edge arrays and the weights are as launched throughout.
-/
import proofs.«169219_j58720792870991_1_alg».proof.Proof.KernelRun
import proofs.«169219_j58720792870991_1_alg».proof.Proof.Blocks0
import proofs.«169219_j58720792870991_1_alg».proof.Proof.Blocks1
import proofs.«169219_j58720792870991_1_alg».proof.Proof.Blocks2
import proofs.«169219_j58720792870991_1_alg».proof.Proof.HostChain

set_option maxRecDepth 16384

noncomputable section

namespace Cert.KernelIdeal.Hand

open Cert.KernelIdeal Cert.KernelIdeal.Gen
open Idealize.ShloMosaic Idealize.ShloMosaic.TcCoe Idealize.SL.Sem

/-- Both layers and the log-softmax, as one function of the arguments. -/
def result (x0 : (⟨S50000x512, .f32⟩ : BufTy).Contents (Elt Ideal)) (x1 x2 : (⟨S800000, .i32⟩ : BufTy).Contents (Elt Ideal))
    (x3 : (⟨S800000, .f32⟩ : BufTy).Contents (Elt Ideal)) (x4 : (⟨S512x128, .f32⟩ : BufTy).Contents (Elt Ideal))
    (x5 : (⟨S128x16, .f32⟩ : BufTy).Contents (Elt Ideal)) : (⟨S50000x16, .f32⟩ : BufTy).Contents (Elt Ideal) :=
  Cert.Spec.logSoftmax (spmm16 (Cert.Spec.matProd (relu128 (spmm128 (Cert.Spec.matProd x0 x4) x1 x2 x3)) x5) x1 x2 x3)

variable (m : (ℓ : Loc nD τ sig) → Buf (Elt Ideal) ℓ) (ρ : Dev nD → PrngReg)

/-- What the first product region leaves in its result array. -/
theorem after_region0 (c : Dev nD) :
    W1 m ρ c (Proc.devRef .tc main_v0) = Cert.Spec.matProd (m ((c : Thread nD τ).loc main_arg0)) (m ((c : Thread nD τ).loc main_arg4)) :=
  (W1_arr m ρ c 2).trans (final0 (V0 m ρ) c)

/-- What the second product region leaves in its result array. -/
theorem after_region1 (c : Dev nD) :
    W3 m ρ c (Proc.devRef .tc main_v16) = Cert.Spec.matProd (relu128 (spmm128 (Cert.Spec.matProd (m ((c : Thread nD τ).loc main_arg0)) (m ((c : Thread nD τ).loc main_arg4)))
      (m ((c : Thread nD τ).loc main_arg1)) (m ((c : Thread nD τ).loc main_arg2)) (m ((c : Thread nD τ).loc main_arg3)))) (m ((c : Thread nD τ).loc main_arg5)) := by
  refine ((W3_arr m ρ c 2).trans (final1 (V2 m ρ) c)).trans ?_
  rw [entry1_left m ρ c, W1_arg1 m ρ c, W1_arg2 m ρ c, W1_arg3 m ρ c, after_region0 m ρ c]
  exact congrArg (Cert.Spec.matProd _) (W2_arg5 m ρ c)

/-- What the log-softmax region leaves in the result array. -/
theorem last_value (c : Dev nD) :
    W5 m ρ c (Proc.devRef .tc main_v30) = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((W5_arr m ρ c 1).trans (final2 (V4 m ρ) c)).trans ?_
  rw [entry2_operand m ρ c, W3_arg1 m ρ c, W3_arg2 m ρ c, W3_arg3 m ρ c, after_region1 m ρ c]
  rfl

/-- The run, read: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v30) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_value m ρ c), (h c).2⟩) (run_result m ρ)

end Cert.KernelIdeal.Hand

end
-- ==== Proof.RefValue.lean ====
/-
  The reference's result as one function of its arguments.
  The reference multiplies x by W1 on the host, gathers, scales and scatter-adds the rows along the edges, takes the maximum
  with zero, multiplies by W2, gathers, scales and scatter-adds again, and applies the row-wise log-softmax. Read one
  operation at a time: each host product is the plain sum over k, the edge operations are kept as two functions of their
  operands, and the outlined log-softmax is the row-wise log-softmax of its operand.
-/
import proofs.«169219_j58720792870991_1_alg».proof.Proof.RefRead
import proofs.«169219_j58720792870991_1_alg».proof.Proof.Spec

set_option maxRecDepth 16384

noncomputable section

open scoped BigOperators

namespace Cert.ReferenceIdeal.Hand

open Cert.ReferenceIdeal Cert.ReferenceIdeal.Gen Cert.ReferenceIdeal.ReadP
open Idealize.ShloMosaic Idealize.ShloMosaic.TcCoe Idealize.ShloMosaic.ValueIdx Idealize.SL.Sem

variable {F : FTy → Type} [FloatOps F]

/-- Rows of a 128-column matrix gathered by source node, scaled by the edge values, added at the destination nodes. -/
def spmm128 (h : (⟨S50000x128, .f32⟩ : BufTy).Contents (Elt F)) (src dst : (⟨S800000, .i32⟩ : BufTy).Contents (Elt F))
    (val : (⟨S800000, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The same for a 16-column matrix. -/
def spmm16 (h : (⟨S50000x16, .f32⟩ : BufTy).Contents (Elt F)) (src dst : (⟨S800000, .i32⟩ : BufTy).Contents (Elt F))
    (val : (⟨S800000, .f32⟩ : BufTy).Contents (Elt F)) : (⟨S50000x16, .f32⟩ : BufTy).Contents (Elt F) :=
  Host.scatterAdd scatter_S50000x16_S800000x1_S800000x16_1_0_0_1 (broadcastInDim S50000x16 ![] bcast_S_S50000x16 (constant S_ .f32 0x00000000#32)) (broadcastInDim S800000x1 ![0] bcast_S800000_S800000x1_0 dst) (mulf (broadcastInDim S800000x16 ![0, 1] bcast_S800000x1_S800000x16_0_1 (broadcastInDim S800000x1 ![0] bcast_S800000_S800000x1_0 val)) (Host.gather gather_S50000x16_S800000x1_S800000x16_1_0_n_n_0_1_116 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The maximum with zero, entry by entry. -/
def relu128 (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

section
variable (x0 : (⟨S50000x512, .f32⟩ : BufTy).Contents (Elt Ideal)) (x1 x2 : (⟨S800000, .i32⟩ : BufTy).Contents (Elt Ideal))
  (x3 : (⟨S800000, .f32⟩ : BufTy).Contents (Elt Ideal)) (x4 : (⟨S512x128, .f32⟩ : BufTy).Contents (Elt Ideal))
  (x5 : (⟨S128x16, .f32⟩ : BufTy).Contents (Elt Ideal))

/-- The first host product is the product of x and W1. -/
theorem v0_eq : val_main_v0 (F := Ideal) x0 x4 = Cert.Spec.matProd x0 x4 := by
  funext i
  rw [val_main_v0_apply]
  unfold Cert.Spec.matProd
  refine Finset.sum_congr rfl fun k _ => ?_
  have el : lidx_main_v0 i k = ix2 (⟨(i 0).val, (i 0).isLt⟩ : Fin 50000) k := funext fun a => by
    match a with
    | ⟨0, _⟩ => rfl
    | ⟨1, _⟩ => rfl
  have er : ridx_main_v0 i k = ix2 k (⟨(i 1).val, (i 1).isLt⟩ : Fin 128) := funext fun a => by
    match a with
    | ⟨0, _⟩ => rfl
    | ⟨1, _⟩ => rfl
  rw [el, er]

/-- The first edge stage and the maximum with zero. -/
theorem v14_eq : val_main_v14 (F := Ideal) x0 x1 x2 x3 x4 = relu128 (spmm128 (val_main_v0 (F := Ideal) x0 x4) x1 x2 x3) := rfl

/-- The second host product is the product of the first layer's output and W2. -/
theorem v15_eq : val_main_v15 (F := Ideal) x0 x1 x2 x3 x4 x5 = Cert.Spec.matProd (val_main_v14 (F := Ideal) x0 x1 x2 x3 x4) x5 := by
  funext i
  rw [val_main_v15_apply]
  unfold Cert.Spec.matProd
  refine Finset.sum_congr rfl fun k _ => ?_
  have el : lidx_main_v15 i k = ix2 (⟨(i 0).val, (i 0).isLt⟩ : Fin 50000) k := funext fun a => by
    match a with
    | ⟨0, _⟩ => rfl
    | ⟨1, _⟩ => rfl
  have er : ridx_main_v15 i k = ix2 k (⟨(i 1).val, (i 1).isLt⟩ : Fin 16) := funext fun a => by
    match a with
    | ⟨0, _⟩ => rfl
    | ⟨1, _⟩ => rfl
  rw [el, er]

/-- The second edge stage. -/
theorem v28_eq : val_main_v28 (F := Ideal) x0 x1 x2 x3 x4 x5 = spmm16 (val_main_v15 (F := Ideal) x0 x1 x2 x3 x4 x5) x1 x2 x3 := rfl

/-- The outlined log-softmax is the row-wise log-softmax of its operand. -/
theorem v29_eq : val_main_v29 (F := Ideal) x0 x1 x2 x3 x4 x5 = Cert.Spec.logSoftmax (val_main_v28 (F := Ideal) x0 x1 x2 x3 x4 x5) := by
  funext i
  obtain ⟨r, q, rfl⟩ : ∃ (r : Fin 50000) (q : Fin 16), i = ix2 r q := ⟨i 0, i 1, eq_ix2 i⟩
  unfold val_main_v29 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0 val_main_call1_cst_1
  generalize val_main_v28 (F := Ideal) x0 x1 x2 x3 x4 x5 = Y
  exact Cert.LibLogSoftmax.lsm_host (n := 50000) (m := 16) Y _ _ (by decide) _ _ _ r q

/-- The reference's result: both layers and the log-softmax, as one function of the arguments. -/
theorem value_eq : val_main_v29 (F := Ideal) x0 x1 x2 x3 x4 x5
    = Cert.Spec.logSoftmax (spmm16 (Cert.Spec.matProd (relu128 (spmm128 (Cert.Spec.matProd x0 x4) x1 x2 x3)) x5) x1 x2 x3) := by
  rw [v29_eq, v28_eq, v15_eq, v14_eq, v0_eq]

end

end Cert.ReferenceIdeal.Hand

end
-- ==== Proof.lean ====
/-
  The proof of `Cert.Claim`: a two-layer graph convolution with a row-wise log-softmax on top, the kernel's three regions
  against the host reference.
  Both programs compute log-softmax (A · (relu (A · (x · W1)) · W2)), where A · is the edge stage (gather the rows by source
  node, scale by the edge value, add at the destination node). The kernel computes the two dense products and the
  log-softmax in three grid regions over blocks of rows, the reference on the host; the edge stages and the maximum with
  zero are host operations in both. On the extended reals the rounding to bf16 in front of each kernel product is the
  identity, each product of a row block is the same sum over k as the host's, and a row's log-softmax depends on that row
  alone, so each region's array is the same whole-array function of its operands as the reference's stage, and the edge
  stages are the same operations applied to equal operands. No law of arithmetic beyond this is used, and the inputs'
  finiteness is not needed.
-/
import proofs.«169219_j58720792870991_1_alg».proof.Defs
import proofs.«169219_j58720792870991_1_alg».proof.Proof.Gen.Kernel
import proofs.«169219_j58720792870991_1_alg».proof.Proof.Gen.Kernel.Skeleton
import proofs.«169219_j58720792870991_1_alg».proof.Proof.Gen.Kernel.Launch
import proofs.«169219_j58720792870991_1_alg».proof.Proof.Gen.Kernel.Points
import proofs.«169219_j58720792870991_1_alg».proof.Proof.Gen.Kernel.Frame
import proofs.«169219_j58720792870991_1_alg».proof.Proof.Gen.KernelIdeal
import proofs.«169219_j58720792870991_1_alg».proof.Proof.Gen.KernelIdeal.Skeleton
import proofs.«169219_j58720792870991_1_alg».proof.Proof.Gen.KernelIdeal.Launch
import proofs.«169219_j58720792870991_1_alg».proof.Proof.Gen.KernelIdeal.Points
import proofs.«169219_j58720792870991_1_alg».proof.Proof.Gen.KernelIdeal.Frame
import proofs.«169219_j58720792870991_1_alg».proof.Proof.Gen.ReferenceIdeal
import proofs.«169219_j58720792870991_1_alg».proof.Proof.Gen.Pre_finite_inputs
import proofs.«169219_j58720792870991_1_alg».proof.Proof.KernelValue
import proofs.«169219_j58720792870991_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- The reference's edge stages and maximum with zero are the kernel's: the same operations. -/
theorem result_eq (x0 : (⟨Cert.KernelIdeal.S50000x512, .f32⟩ : BufTy).Contents (Elt Ideal)) (x1 x2 : (⟨Cert.KernelIdeal.S800000, .i32⟩ : BufTy).Contents (Elt Ideal))
    (x3 : (⟨Cert.KernelIdeal.S800000, .f32⟩ : BufTy).Contents (Elt Ideal)) (x4 : (⟨Cert.KernelIdeal.S512x128, .f32⟩ : BufTy).Contents (Elt Ideal))
    (x5 : (⟨Cert.KernelIdeal.S128x16, .f32⟩ : BufTy).Contents (Elt Ideal)) :
    Cert.Spec.logSoftmax (Cert.ReferenceIdeal.Hand.spmm16 (Cert.Spec.matProd (Cert.ReferenceIdeal.Hand.relu128 (Cert.ReferenceIdeal.Hand.spmm128 (Cert.Spec.matProd x0 x4) x1 x2 x3)) x5) x1 x2 x3)
      = Cert.KernelIdeal.Hand.result x0 x1 x2 x3 x4 x5 := rfl

/-- At the ideal instance both programs end with the result array at the same function of arguments that agree. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, Cert.ReferenceIdeal.Hand.value_eq]
  obtain ⟨e0, e1, e2, e3, e4, e5⟩ := hagree c
  rw [e0, e1, e2, e3, e4, e5]
  exact result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
